-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S64x512 : Shape := ⟨2, ![64, 512]⟩
abbrev S128x512 : Shape := ⟨2, ![128, 512]⟩
abbrev S64x128 : Shape := ⟨2, ![64, 128]⟩
abbrev S64x1x512 : Shape := ⟨3, ![64, 1, 512]⟩
abbrev S1x128x512 : Shape := ⟨3, ![1, 128, 512]⟩
abbrev S64x128x512 : Shape := ⟨3, ![64, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S64x512, .f32⟩
  | .local _ .vmem, ⟨1, _⟩ => ⟨S64x512, .f32⟩
  | .local _ .vmem, ⟨2, _⟩ => ⟨S128x512, .f32⟩
  | .local _ .vmem, ⟨3, _⟩ => ⟨S128x512, .f32⟩
  | .local _ .vmem, ⟨4, _⟩ => ⟨S64x128, .f32⟩
  | .local _ .vmem, ⟨5, _⟩ => ⟨S64x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S64x512_S64x512_0_0 : ∀ a, (![0, 0] : Fin 2 → Nat) a + S64x512.size a ≤ S64x512.size a
  h_S64x512 : 0 < S64x512.numel
  inb_S128x512_S128x512_0_0 : ∀ a, (![0, 0] : Fin 2 → Nat) a + S128x512.size a ≤ S128x512.size a
  h_S128x512 : 0 < S128x512.numel
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  reduces_S64x128x512_S64x128 : S64x128x512.Reduces [2] S64x128
  inb_S64x128_S64x128_0_0 : ∀ a, (![0, 0] : Fin 2 → Nat) a + S64x128.size a ≤ S64x128.size a
  h_S64x128 : 0 < S64x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S1024x512.size a
  hwx0_0 : ∀ i : grid0.Coords, EltTy.bits .f32 = 32 ∨ (Rect.block (s := S1024x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S1024x512.size a
  hwx0_2 : ∀ i : grid0.Coords, EltTy.bits .f32 = 32 ∨ (Rect.block (s := S1024x512) S64x128.size (cc0_transform_2 i) (hinb0_2 i)).WholeWords (EltTy.packing .f32)

variable [Facts₀]

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x1x512, .f32⟩
  | .hbm, ⟨3, _⟩ => ⟨S1x512x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel

variable [Facts₀]

class Facts : Prop extends Facts₀ where

variable [Facts]
-- ==== Proof.MaxPlus.lean ====
/-
  The max-plus ("tropical") product of two matrices over the extended reals, stated once, apart from both programs.

  For `x : [nb, 512]` and `w : [no, 512]` the entry at `(b, o)` is the maximum over the shared axis `k` of
  `x[b, k] + w[o, k]`, the maximum taken from `-∞`. The maximum of a finite family does not depend on the order in
  which it is taken (`max` commutes and associates), so it is written as a fold over the whole of `Fin 512`.
  Both programs compute exactly this entry: the kernel on a `64 × 128` tile of the result from a `64 × 512` block of `x`
  and a `128 × 512` block of `w`, the reference on the whole `1024 × 512` result at once.
-/
import Idealize.ShloMosaic.PureOps.Ideal
import Idealize.ShloMosaic.PureOps.Ideal.Laws
import Idealize.ShloMosaic.Lib.ValueIdx

noncomputable section

namespace Cert.MaxPlus

open Idealize.ShloMosaic Idealize.ShloMosaic.ValueIdx

/-- The value every maximum starts from: the f32 pattern of `-∞`, read as an extended real. -/
abbrev bottom : EReal := Ideal.ofBits .f32 0xFF800000#32

/-- One entry of the max-plus product: `max_k (x[b, k] + w[o, k])` over the 512 values of `k`, from `-∞`. -/
def entry {nb no : Nat} (x : (⟨2, ![nb, 512]⟩ : Shape).Idx → EReal) (w : (⟨2, ![no, 512]⟩ : Shape).Idx → EReal)
    (b : Fin nb) (o : Fin no) : EReal :=
  (Finset.univ : Finset (Fin 512)).fold max bottom (fun k => x (ix2 b k) + w (ix2 o k))

/-- The whole product of a `[1024, 512]` and a `[512, 512]` matrix: entry `(b, o)` at index `(b, o)`. -/
def product (x : (⟨2, ![1024, 512]⟩ : Shape).Idx → EReal) (w : (⟨2, ![512, 512]⟩ : Shape).Idx → EReal) :
    (⟨2, ![1024, 512]⟩ : Shape).Idx → EReal :=
  fun i => entry x w (i 0) (i 1)

/-- An entry depends on `x` only through row `b` and on `w` only through row `o`: two pairs of matrices whose
    rows `b` / `b'` and `o` / `o'` agree have the same entry there. This is what lets a tile of the product be
    computed from blocks of rows. -/
theorem entry_congr {nb no nb' no' : Nat}
    (x : (⟨2, ![nb, 512]⟩ : Shape).Idx → EReal) (w : (⟨2, ![no, 512]⟩ : Shape).Idx → EReal)
    (x' : (⟨2, ![nb', 512]⟩ : Shape).Idx → EReal) (w' : (⟨2, ![no', 512]⟩ : Shape).Idx → EReal)
    (b : Fin nb) (o : Fin no) (b' : Fin nb') (o' : Fin no')
    (hx : ∀ k : Fin 512, x (ix2 b k) = x' (ix2 b' k)) (hw : ∀ k : Fin 512, w (ix2 o k) = w' (ix2 o' k)) :
    entry x w b o = entry x' w' b' o' := by
  unfold entry
  exact Finset.fold_congr fun k _ => by rw [hx k, hw k]

end Cert.MaxPlus

end
-- ==== Proof.Payload.lean ====
/-
  What the kernel body stores, read at an index of its tile.

  The body loads a `64 × 512` block `xb` of `x` and a `128 × 512` block `wb` of `w`, views them as `[64, 1, 512]` and
  `[1, 128, 512]`, broadcasts both to `[64, 128, 512]`, adds, and takes the maximum over the last axis from `-∞`. At
  `(p, q, k)` the first broadcast reads `xb[p, k]` and the second `wb[q, k]` (a reshape keeps the row-major position, and
  a unit axis contributes nothing to it), so entry `(p, q)` of the stored tile is `max_k (xb[p, k] + wb[q, k])`: the
  max-plus entry of the two blocks.
-/
import proofs.«115953_j66116726555066_1_alg».proof.Proof.Gen.KernelIdeal.Skeleton
import proofs.«115953_j66116726555066_1_alg».proof.Proof.MaxPlus
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx

/-- Putting the coordinate `k` back on the reduced axis of `(p, q)` gives `(p, q, k)`. -/
theorem lift_ix (p : Fin 64) (q : Fin 128) (k : Fin 512) :
    reduces_S64x128x512_S64x128.lift (ix2 p q) k = ix3 p q k := by
  funext a; apply Fin.ext
  match a with
  | ⟨0, _⟩ => rfl
  | ⟨1, _⟩ => rfl
  | ⟨2, _⟩ => rfl

/-- The block of `x`, viewed `[64, 1, 512]` and broadcast along the new axis, reads `xb[p, k]` at `(p, q, k)`. -/
theorem x_at (xb : Vec Ideal S64x512 .f32) (p : Fin 64) (q : Fin 128) (k : Fin 512) :
    broadcastTo S64x128x512 (shapeCast S64x1x512 xb shapeCasts_S64x512_S64x1x512) broadcasts_S64x1x512_S64x128x512 (ix3 p q k)
      = xb (ix2 p k) := by
  refine (broadcastTo_apply _ broadcasts_S64x1x512_S64x128x512 (ix3 p q k) (ix3 p (0 : Fin 1) k) (fun a => ?_)).trans ?_
  · match a with
    | ⟨0, _⟩ => show p.val = if (64 : Nat) = 1 then 0 else p.val; rw [if_neg (by decide)]
    | ⟨1, _⟩ => show 0 = if (1 : Nat) = 1 then 0 else q.val; rw [if_pos rfl]
    | ⟨2, _⟩ => show k.val = if (512 : Nat) = 1 then 0 else k.val; rw [if_neg (by decide)]
  · refine shapeCast_apply xb shapeCasts_S64x512_S64x1x512 (ix3 p (0 : Fin 1) k) (ix2 p k) ?_
    rw [Shape.rowMajor_val_two, Shape.rowMajor_val_three]
    show p.val * 512 + k.val = (p.val * 1 + 0) * 512 + k.val
    omega

/-- The block of `w`, viewed `[1, 128, 512]` and broadcast along the new axis, reads `wb[q, k]` at `(p, q, k)`. -/
theorem w_at (wb : Vec Ideal S128x512 .f32) (p : Fin 64) (q : Fin 128) (k : Fin 512) :
    broadcastTo S64x128x512 (shapeCast S1x128x512 wb shapeCasts_S128x512_S1x128x512) broadcasts_S1x128x512_S64x128x512 (ix3 p q k)
      = wb (ix2 q k) := by
  refine (broadcastTo_apply _ broadcasts_S1x128x512_S64x128x512 (ix3 p q k) (ix3 (0 : Fin 1) q k) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show k.val = if (512 : Nat) = 1 then 0 else k.val; rw [if_neg (by decide)]
  · refine shapeCast_apply wb shapeCasts_S128x512_S1x128x512 (ix3 (0 : Fin 1) q k) (ix2 q k) ?_
    rw [Shape.rowMajor_val_two, Shape.rowMajor_val_three]
    show q.val * 512 + k.val = (0 * 128 + q.val) * 512 + k.val
    omega

/-- The stored tile at `(p, q)` is the max-plus entry `(p, q)` of the two loaded blocks. -/
theorem pay_at (xb : Vec Ideal S64x512 .f32) (wb : Vec Ideal S128x512 .f32) (p : Fin 64) (q : Fin 128) :
    k0_pay1 (F := Ideal) xb wb (ix2 p q) = MaxPlus.entry xb wb p q := by
  unfold k0_pay1
  refine (Ideal.multiReduction_maximumf_single (φ := .f32) _ 0xFF800000#32 reduces_S64x128x512_S64x128 (.inl rfl) rfl
    (ix2 p q)).trans ?_
  show (Finset.univ : Finset (Fin 512)).fold max MaxPlus.bottom
      (fun k : Fin 512 => addf (F := Ideal)
        (broadcastTo S64x128x512 (shapeCast S64x1x512 xb shapeCasts_S64x512_S64x1x512) broadcasts_S64x1x512_S64x128x512)
        (broadcastTo S64x128x512 (shapeCast S1x128x512 wb shapeCasts_S128x512_S1x128x512) broadcasts_S1x128x512_S64x128x512)
        (reduces_S64x128x512_S64x128.lift (ix2 p q) k))
    = MaxPlus.entry xb wb p q
  unfold MaxPlus.entry
  refine Finset.fold_congr fun (k : Fin 512) _ => ?_
  show broadcastTo S64x128x512 (shapeCast S64x1x512 xb shapeCasts_S64x512_S64x1x512) broadcasts_S64x1x512_S64x128x512
        (reduces_S64x128x512_S64x128.lift (ix2 p q) k)
      + broadcastTo S64x128x512 (shapeCast S1x128x512 wb shapeCasts_S128x512_S1x128x512) broadcasts_S1x128x512_S64x128x512
        (reduces_S64x128x512_S64x128.lift (ix2 p q) k) = _
  rw [lift_ix, x_at, w_at]

end Cert.KernelIdeal.Payload

end
-- ==== Proof.Tiles.lean ====
/-
  From tiles to the whole result: after the kernel's run the result array is the max-plus product of the arguments.

  The grid has `16 × 4` points. Point `(i, j)` reads rows `64·i … 64·i + 63` of `x` (all 512 columns), rows
  `128·j … 128·j + 127` of `w` (all 512 columns), and writes the `64 × 128` tile of the result at block row `i`, block
  column `j`. An entry of the max-plus product depends on `x` only through its row and on `w` only through its row, so
  the tile the body computes from the two blocks is the corresponding tile of the product of the whole arrays. The 64
  tiles cover the `1024 × 512` result: the entry at `(r, s)` lies in the tile of the point with block row `r / 64` and
  block column `s / 128`.
-/
import proofs.«115953_j66116726555066_1_alg».proof.Proof.Gen.KernelIdeal.Value
import proofs.«115953_j66116726555066_1_alg».proof.Proof.Payload

noncomputable section

namespace Cert.KernelIdeal.Tiles

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- How the three windows move over the grid, decided over its 64 points: the block of `x` is on the result tile's block
    row and spans all columns; the block of `w` is on the block ROW of `w` numbered by the result tile's block COLUMN and
    spans all columns; the tile's block row is below 16 and its block column below 4. -/
theorem block_indices : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 3 :=
  (by decide +kernel : ∀ t : Fin grid0.N, _)

/-- Every one of the `16 × 4` tiles is some point's. -/
theorem block_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- Row `p` of point `t`'s block of `x` is the row of `x` on which row `p` of the point's result tile lies. -/
theorem x_block_at (c : Dev nD) (t : Fin cfg0.N) (p : Fin 64) (q : Fin 128) (k : Fin 512) :
    iblk m c 0 t (ix2 p k)
      = V m c main_arg0 (ix2 (n0 := 1024) ((((cfg0.win 2).blk t).view.emb (ix2 p q)) 0) k) := by
  obtain ⟨e0, e1, -, -, -, -⟩ := block_indices t
  show V m c main_arg0 (((cfg0.win 0).blk t).view.emb (ix2 p k)) = _
  refine congrArg (V m c main_arg0) (funext fun a => Fin.ext ?_)
  match a with
  | ⟨0, _⟩ =>
    show win0_0.index t (0 : Fin 2) * 64 + 1 * p.val = win0_2.index t (0 : Fin 2) * 64 + 1 * p.val
    omega
  | ⟨1, _⟩ =>
    show win0_0.index t (1 : Fin 2) * 512 + 1 * k.val = k.val
    omega

/-- Row `q` of point `t`'s block of `w` is the row of `w` numbered by the column on which column `q` of the point's result
    tile lies. -/
theorem w_block_at (c : Dev nD) (t : Fin cfg0.N) (p : Fin 64) (q : Fin 128) (k : Fin 512) :
    iblk m c 1 t (ix2 q k)
      = V m c main_arg1 (ix2 (n0 := 512) ((((cfg0.win 2).blk t).view.emb (ix2 p q)) 1) k) := by
  obtain ⟨-, -, e2, e3, -, -⟩ := block_indices t
  show V m c main_arg1 (((cfg0.win 1).blk t).view.emb (ix2 q k)) = _
  refine congrArg (V m c main_arg1) (funext fun a => Fin.ext ?_)
  match a with
  | ⟨0, _⟩ =>
    show win0_1.index t (0 : Fin 2) * 128 + 1 * q.val = win0_2.index t (1 : Fin 2) * 128 + 1 * q.val
    omega
  | ⟨1, _⟩ =>
    show win0_1.index t (1 : Fin 2) * 512 + 1 * k.val = k.val
    omega

/-- What point `t` writes back is tile `t` of the max-plus product of the arrays as the region finds them. -/
theorem flushed_eq (c : Dev nD) (t : Fin cfg0.N) :
    (dats m 0 c).flushed 2 t
      = ((cfg0.win 2).blk t).view.read (Elt Ideal) (MaxPlus.product (V m c main_arg0) (V m c main_arg1)) := by
  rw [Value.flushed2]
  unfold out0_2
  rw [View.canon_unit_zero origin]
  simp only [View.ld_unit_zero (S := S64x512) origin, View.ld_unit_zero (S := S128x512) origin]
  refine funext fun (y : S64x128.Idx) => ?_
  obtain ⟨p, q, rfl⟩ : ∃ (p : Fin 64) (q : Fin 128), y = ix2 p q := ⟨y 0, y 1, eq_ix2 y⟩
  show k0_pay1 (F := Ideal) (iblk m c 0 t) (iblk m c 1 t) (ix2 p q)
    = MaxPlus.entry (nb := 1024) (no := 512) (V m c main_arg0) (V m c main_arg1)
        ((((cfg0.win 2).blk t).view.emb (ix2 p q)) 0) ((((cfg0.win 2).blk t).view.emb (ix2 p q)) 1)
  refine (Payload.pay_at (iblk m c 0 t) (iblk m c 1 t) p q).trans ?_
  exact MaxPlus.entry_congr _ _ _ _ _ _ _ _ (fun k => x_block_at m c t p q k) (fun k => w_block_at m c t p q k)

/-- An index of the result lies in point `t`'s tile iff each coordinate is in the tile's range on its axis. -/
theorem mem_tile (t : Fin cfg0.N) (i : S1024x512.Idx) :
    i ∈ ((cfg0.win 2).blk t).view.set ↔ ∀ a : Fin 2, win0_2.index t a * S64x128.size a ≤ (i a).val
      ∧ (i a).val < win0_2.index t a * S64x128.size a + S64x128.size a := by
  show i ∈ ((View.whole main_v0).slice (win0_2.rect t)).set ↔ _
  rw [View.set_slice_whole, Rect.mem_set_unit]
  exact Iff.rfl

/-- The tiles cover the result: `(r, s)` lies in the tile at block row `r / 64`, block column `s / 128`. -/
theorem tiles_cover (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := block_onto ⟨(i 0).val / 64, by omega⟩ ⟨(i 1).val / 128, by omega⟩
  have q0 : win0_2.index t (0 : Fin 2) = (i 0).val / 64 := congrFun ht 0
  have q1 : win0_2.index t (1 : Fin 2) = (i 1).val / 128 := congrFun ht 1
  refine ⟨t, flush0_2 t, ?_⟩
  rw [mem_tile]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 128 ≤ (i 1).val ∧ (i 1).val < win0_2.index t (1 : Fin 2) * 128 + 128
    omega

/-- The result array after the run is the max-plus product of the argument arrays as launched. -/
theorem final (c : Dev nD) :
    (dats m 0 c).arrAt 2 cfg0.N
      = MaxPlus.product (m ((c : Thread nD τ).loc main_arg0)) (m ((c : Thread nD τ).loc main_arg1)) :=
  (dats m 0 c).arrAt_eq_of_cover 2 (MaxPlus.product (V m c main_arg0) (V m c main_arg1))
    (fun t _ => flushed_eq m c t) tiles_cover

/-- Every weakly fair execution of the kernel's program terminates with the result array at the max-plus product of the
    arguments and the arguments unchanged. -/
theorem run : θ_run defs (onTc (τ := τ) (main (F := Ideal))) ⟨m, fun _ => 0, ρ⟩ fun r => ∀ c : Dev nD,
      r.2.mem ((c : Thread nD τ).loc main_v0)
        = MaxPlus.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.RefValue.lean ====
/-
  The reference's result is the max-plus product of its two arguments.

  The reference broadcasts `x` to `[1024, 1, 512]` and on to `[1024, 512, 512]`, `w` to `[1, 512, 512]` and on to
  `[1024, 512, 512]`, adds the two, and takes the maximum over the last axis from `-∞`. At index `(b, o, k)` the first
  broadcast reads `x[b, k]` and the second `w[o, k]`; the indices of the big array that drop to `(b, o)` are exactly
  `(b, o, k)` for `k` in `Fin 512`; so entry `(b, o)` of the result is `max_k (x[b, k] + w[o, k])`.
-/
import proofs.«115953_j66116726555066_1_alg».proof.Proof.Gen.ReferenceIdeal.Read
import proofs.«115953_j66116726555066_1_alg».proof.Proof.MaxPlus
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The last axis of `[1024, 512, 512]` is the one reduced away. -/
theorem reduces : S1024x512x512.Reduces [2] S1024x512 := by decide

/-- Putting the coordinate `k` back on the reduced axis of `(b, o)` gives `(b, o, k)`. -/
theorem lift_ix (b : Fin 1024) (o : Fin 512) (k : Fin 512) : reduces.lift (ix2 b o) k = ix3 b o k := by
  funext a; apply Fin.ext
  match a with
  | ⟨0, _⟩ => rfl
  | ⟨1, _⟩ => rfl
  | ⟨2, _⟩ => rfl

/-- The twice-broadcast `x` at `(b, o, k)` is `x[b, k]`: the new middle axis is ignored. -/
theorem x_at (x0 : FVec Ideal S1024x512 .f32) (b : Fin 1024) (o : Fin 512) (k : Fin 512) :
    val_main_v2 (F := Ideal) x0 (ix3 b o k) = x0 (ix2 b k) := by
  rw [val_main_v2_apply, val_main_v0_apply]
  exact congrArg x0 (funext fun a => Fin.ext (by match a with | ⟨0, _⟩ => rfl | ⟨1, _⟩ => rfl))

/-- The twice-broadcast `w` at `(b, o, k)` is `w[o, k]`: the new leading axis is ignored. -/
theorem w_at (x1 : FVec Ideal S512x512 .f32) (b : Fin 1024) (o : Fin 512) (k : Fin 512) :
    val_main_v3 (F := Ideal) x1 (ix3 b o k) = x1 (ix2 o k) := by
  rw [val_main_v3_apply, val_main_v1_apply]
  exact congrArg x1 (funext fun a => Fin.ext (by match a with | ⟨0, _⟩ => rfl | ⟨1, _⟩ => rfl))

/-- The reference's result, as a function of its arguments, is their max-plus product. -/
theorem val_eq_product (x0 : FVec Ideal S1024x512 .f32) (x1 : FVec Ideal S512x512 .f32) :
    val_main_v5 (F := Ideal) x0 x1 = MaxPlus.product x0 x1 := by
  funext j
  obtain ⟨b, o, rfl⟩ : ∃ (b : Fin 1024) (o : Fin 512), j = ix2 b o := ⟨j 0, j 1, eq_ix2 j⟩
  unfold val_main_v5
  refine (Host.reduce_eq_fold_single (FloatOps.maximumf (F := Ideal) (φ := .f32)) (val_main_v4 (F := Ideal) x0 x1)
    (val_main_cst (F := Ideal)) reducesTo_S1024x512x512_S1024x512_d2 reduces h_S_ (ix2 b o)).trans ?_
  show (Finset.univ : Finset (Fin 512)).fold max MaxPlus.bottom
      (fun k : Fin 512 => val_main_v4 (F := Ideal) x0 x1 (reduces.lift (ix2 b o) k))
    = MaxPlus.entry x0 x1 b o
  unfold MaxPlus.entry
  refine Finset.fold_congr fun (k : Fin 512) _ => ?_
  show val_main_v2 (F := Ideal) x0 (reduces.lift (ix2 b o) k) + val_main_v3 (F := Ideal) x1 (reduces.lift (ix2 b o) k) = _
  rw [lift_ix, x_at, w_at]

end Cert.ReferenceIdeal.RefValue

end
-- ==== Proof.lean ====
/-
  The kernel computes the max-plus ("tropical") product `y[b, o] = max_k (x[b, k] + W[o, k])` of `x : [1024, 512]` and
  `W : [512, 512]`, and so does the reference; over the extended reals the two results are equal entry by entry.

  The kernel tiles the result into `16 × 4` tiles of `64 × 128`. For one tile it loads the 64 rows of `x` and the 128 rows
  of `W` the tile depends on, whole along `k`, forms all `64 · 128 · 512` sums `x[p, k] + W[q, k]`, and takes the maximum
  over `k` from `-∞`. The reference forms all `1024 · 512 · 512` sums at once and takes the same maximum from the same
  `-∞`. Since an entry of the product depends on `x` only through one row and on `W` only through one row, the tile computed
  from the two blocks is the tile of the product of the whole arrays, and the tiles cover the result. A maximum of a
  finite family does not depend on how it is bracketed or ordered, so no property of the entries is used: the two sides
  agree for all extended-real inputs, and the finiteness of the inputs is not needed.

  * `MaxPlus`   — the product, stated once over the extended reals.
  * `RefValue`  — the reference's result is the product of its arguments.
  * `Payload`   — the tile the kernel body stores is the product's tile of the two loaded blocks.
  * `Tiles`     — the tiles are tiles of the product of the whole arrays and cover the result, so the result array after
                  the kernel's run is the product.
  The kernel's idealization rewrote nothing, so it is the kernel's own text read over the extended reals.
-/
import proofs.«115953_j66116726555066_1_alg».proof.Defs
import proofs.«115953_j66116726555066_1_alg».proof.Proof.Gen.Kernel
import proofs.«115953_j66116726555066_1_alg».proof.Proof.Gen.Kernel.Skeleton
import proofs.«115953_j66116726555066_1_alg».proof.Proof.Gen.Kernel.Launch
import proofs.«115953_j66116726555066_1_alg».proof.Proof.Gen.Kernel.Points
import proofs.«115953_j66116726555066_1_alg».proof.Proof.Gen.Kernel.Frame
import proofs.«115953_j66116726555066_1_alg».proof.Proof.Gen.KernelIdeal
import proofs.«115953_j66116726555066_1_alg».proof.Proof.Gen.KernelIdeal.Skeleton
import proofs.«115953_j66116726555066_1_alg».proof.Proof.Gen.KernelIdeal.Launch
import proofs.«115953_j66116726555066_1_alg».proof.Proof.Gen.KernelIdeal.Points
import proofs.«115953_j66116726555066_1_alg».proof.Proof.Gen.KernelIdeal.Frame
import proofs.«115953_j66116726555066_1_alg».proof.Proof.Gen.ReferenceIdeal
import proofs.«115953_j66116726555066_1_alg».proof.Proof.Gen.Pre_finite_inputs
import proofs.«115953_j66116726555066_1_alg».proof.Proof.Gen.KernelIdeal.Value
import proofs.«115953_j66116726555066_1_alg».proof.Proof.Gen.ReferenceIdeal.Run
import proofs.«115953_j66116726555066_1_alg».proof.Proof.Gen.ReferenceIdeal.Read
import proofs.«115953_j66116726555066_1_alg».proof.Proof.Tiles
import proofs.«115953_j66116726555066_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals, so there is nothing to preserve. -/
theorem preserves : Cert.preserves_Kernel_KernelIdeal := trivial

/-- From memories that agree on `x` and `W`, the kernel's result array ends at the max-plus product of the arguments
    (`Tiles.run`) and so does the reference's (`RefValue.val_eq_product` under its run). -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.RefValue.val_eq_product _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
